-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x12x3x73 : Shape := ⟨4, ![32, 12, 3, 73]⟩
abbrev S12x70 : Shape := ⟨2, ![12, 70]⟩
abbrev S12x3x3 : Shape := ⟨3, ![12, 3, 3]⟩
abbrev S3x3 : Shape := ⟨2, ![3, 3]⟩
abbrev S_ : Shape := ⟨0, ![]⟩

class Facts : Prop where
  bcast_S_S32x12x3x73 : S_.BroadcastsInDim S32x12x3x73 (![] : Fin 0 → Fin S32x12x3x73.rank)
  reducesTo_S32x12x3x73_S_d0_1_2_3 : S32x12x3x73.ReducesTo [0, 1, 2, 3] S_
  h_S_ : 0 < S_.numel
  bcast_S_S12x70 : S_.BroadcastsInDim S12x70 (![] : Fin 0 → Fin S12x70.rank)
  reducesTo_S12x70_S_d0_1 : S12x70.ReducesTo [0, 1] S_
  bcast_S_S12x3x3 : S_.BroadcastsInDim S12x3x3 (![] : Fin 0 → Fin S12x3x3.rank)
  reducesTo_S12x3x3_S_d0_1_2 : S12x3x3.ReducesTo [0, 1, 2] S_
  bcast_S_S3x3 : S_.BroadcastsInDim S3x3 (![] : Fin 0 → Fin S3x3.rank)
  reducesTo_S3x3_S_d0_1 : S3x3.ReducesTo [0, 1] S_

variable [Facts]

def fn_part1 {F : FTy → Type} [FloatOps F] (main_v13 : IVec S_ 1) (main_v16 : IVec S3x3 1) : IVec S_ 1 :=
  let main_c_5 : IVec S_ 1 := constantI S_ 1 1#1
  let main_v17 : IVec S_ 1 := (fun x v => Host.reduce IntOp.andi x v reducesTo_S3x3_S_d0_1 h_S_) main_v16 main_c_5
  let main_v18 : IVec S_ 1 := andi main_v13 main_v17
  main_v18

def fn {F : FTy → Type} [FloatOps F] (main_arg0 : FVec F S32x12x3x73 .f32) (main_arg1 : FVec F S12x70 .f32) (main_arg2 : FVec F S12x3x3 .f32) (main_arg3 : FVec F S3x3 .f32) : IVec S_ 1 :=
  let main_v0 : FVec F S32x12x3x73 .f32 := Host.absf main_arg0
  let main_cst : FVec F S_ .f32 := constant S_ .f32 0x7F800000#32
  let main_v1 : FVec F S32x12x3x73 .f32 := broadcastInDim S32x12x3x73 ![] bcast_S_S32x12x3x73 main_cst
  let main_v2 : IVec S32x12x3x73 1 := cmpf .olt main_v0 main_v1
  let main_c : IVec S_ 1 := constantI S_ 1 1#1
  let main_v3 : IVec S_ 1 := (fun x v => Host.reduce IntOp.andi x v reducesTo_S32x12x3x73_S_d0_1_2_3 h_S_) main_v2 main_c
  let main_v4 : FVec F S12x70 .f32 := Host.absf main_arg1
  let main_cst_0 : FVec F S_ .f32 := constant S_ .f32 0x7F800000#32
  let main_v5 : FVec F S12x70 .f32 := broadcastInDim S12x70 ![] bcast_S_S12x70 main_cst_0
  let main_v6 : IVec S12x70 1 := cmpf .olt main_v4 main_v5
  let main_c_1 : IVec S_ 1 := constantI S_ 1 1#1
  let main_v7 : IVec S_ 1 := (fun x v => Host.reduce IntOp.andi x v reducesTo_S12x70_S_d0_1 h_S_) main_v6 main_c_1
  let main_v8 : IVec S_ 1 := andi main_v3 main_v7
  let main_v9 : FVec F S12x3x3 .f32 := Host.absf main_arg2
  let main_cst_2 : FVec F S_ .f32 := constant S_ .f32 0x7F800000#32
  let main_v10 : FVec F S12x3x3 .f32 := broadcastInDim S12x3x3 ![] bcast_S_S12x3x3 main_cst_2
  let main_v11 : IVec S12x3x3 1 := cmpf .olt main_v9 main_v10
  let main_c_3 : IVec S_ 1 := constantI S_ 1 1#1
  let main_v12 : IVec S_ 1 := (fun x v => Host.reduce IntOp.andi x v reducesTo_S12x3x3_S_d0_1_2 h_S_) main_v11 main_c_3
  let main_v13 : IVec S_ 1 := andi main_v8 main_v12
  let main_v14 : FVec F S3x3 .f32 := Host.absf main_arg3
  let main_cst_4 : FVec F S_ .f32 := constant S_ .f32 0x7F800000#32
  let main_v15 : FVec F S3x3 .f32 := broadcastInDim S3x3 ![] bcast_S_S3x3 main_cst_4
  let main_v16 : IVec S3x3 1 := cmpf .olt main_v14 main_v15
  fn_part1 (F := F) main_v13 main_v16
-- ==== Kernel.lean ====
abbrev S32x12x3x73 : Shape := ⟨4, ![32, 12, 3, 73]⟩
abbrev S12x70 : Shape := ⟨2, ![12, 70]⟩
abbrev S12x3x3 : Shape := ⟨3, ![12, 3, 3]⟩
abbrev S3x3 : Shape := ⟨2, ![3, 3]⟩
abbrev S32x3 : Shape := ⟨2, ![32, 3]⟩
abbrev S32x12x1x3 : Shape := ⟨4, ![32, 12, 1, 3]⟩
abbrev S32x12x3 : Shape := ⟨3, ![32, 12, 3]⟩
abbrev S12x3 : Shape := ⟨2, ![12, 3]⟩
abbrev S1x12x3 : Shape := ⟨3, ![1, 12, 3]⟩
abbrev S32x12x1 : Shape := ⟨3, ![32, 12, 1]⟩
abbrev S32x12 : Shape := ⟨2, ![32, 12]⟩
abbrev S1x1 : Shape := ⟨2, ![1, 1]⟩

abbrev nBuf : Space → Nat
  | .hbm => 5
  | .vmem => 4
  | .smem => 0
  | _ => 0

abbrev bufTy : (tb : Table) → Fin (tcTables nBuf tb) → BufTy
  | .hbm, ⟨0, _⟩ => ⟨S32x12x3x73, .f32⟩
  | .hbm, ⟨1, _⟩ => ⟨S12x70, .f32⟩
  | .hbm, ⟨2, _⟩ => ⟨S12x3x3, .f32⟩
  | .hbm, ⟨3, _⟩ => ⟨S3x3, .f32⟩
  | .hbm, ⟨4, _⟩ => ⟨S32x3, .f32⟩
  | .local _ .vmem, ⟨0, _⟩ => ⟨S32x12x3x73, .f32⟩
  | .local _ .vmem, ⟨1, _⟩ => ⟨S12x3x3, .f32⟩
  | .local _ .vmem, ⟨2, _⟩ => ⟨S3x3, .f32⟩
  | .local _ .vmem, ⟨3, _⟩ => ⟨S32x3, .f32⟩
  | _, _ => ⟨S32x12x3x73, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x12x3x73 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S12x3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S32x12x3x73_S32x12x3x73_0_0_0_0 : ∀ a, (![0, 0, 0, 0] : Fin 4 → Nat) a + S32x12x3x73.size a ≤ S32x12x3x73.size a
  h_S32x12x3x73 : 0 < S32x12x3x73.numel
  inb_S12x3x3_S12x3x3_0_0_0 : ∀ a, (![0, 0, 0] : Fin 3 → Nat) a + S12x3x3.size a ≤ S12x3x3.size a
  h_S12x3x3 : 0 < S12x3x3.numel
  inb_S3x3_S3x3_0_0 : ∀ a, (![0, 0] : Fin 2 → Nat) a + S3x3.size a ≤ S3x3.size a
  h_S3x3 : 0 < S3x3.numel
  slices_S32x12x3x73_o0_0_0_0_S32x12x1x3 : S32x12x3x73.Slices ![0, 0, 0, 0] S32x12x1x3
  shapeCasts_S32x12x1x3_S32x12x3 : S32x12x1x3.ShapeCasts S32x12x3
  reduces_S12x3x3_S12x3 : S12x3x3.Reduces [1] S12x3
  shapeCasts_S12x3_S1x12x3 : S12x3.ShapeCasts S1x12x3
  broadcasts_S1x12x3_S32x12x3 : S1x12x3.Broadcasts S32x12x3
  slices_S32x12x3_o0_0_0_S32x12x1 : S32x12x3.Slices ![0, 0, 0] S32x12x1
  shapeCasts_S32x12x1_S32x12 : S32x12x1.ShapeCasts S32x12
  slices_S3x3_o0_0_S1x1 : S3x3.Slices ![0, 0] S1x1
  inpos_S1x1_p0_0 : ∀ a, (![0, 0] : Fin 2 → Nat) a < S1x1.size a
  slices_S32x12x3_o0_0_1_S32x12x1 : S32x12x3.Slices ![0, 0, 1] S32x12x1
  slices_S3x3_o1_0_S1x1 : S3x3.Slices ![1, 0] S1x1
  slices_S32x12x3_o0_0_2_S32x12x1 : S32x12x3.Slices ![0, 0, 2] S32x12x1
  slices_S3x3_o2_0_S1x1 : S3x3.Slices ![2, 0] S1x1
  slices_S3x3_o0_1_S1x1 : S3x3.Slices ![0, 1] S1x1
  slices_S3x3_o1_1_S1x1 : S3x3.Slices ![1, 1] S1x1
  slices_S3x3_o2_1_S1x1 : S3x3.Slices ![2, 1] S1x1
  slices_S3x3_o0_2_S1x1 : S3x3.Slices ![0, 2] S1x1
  slices_S3x3_o1_2_S1x1 : S3x3.Slices ![1, 2] S1x1
  slices_S3x3_o2_2_S1x1 : S3x3.Slices ![2, 2] S1x1
  shapeCasts_S32x12_S32x12x1 : S32x12.ShapeCasts S32x12x1
  concatenates_S32x12x1_S32x12x1_S32x12x1_S32x12x3_d2 : Shape.Concatenates [S32x12x1, S32x12x1, S32x12x1] S32x12x3 2
  reduces_S32x12x3_S32x12 : S32x12x3.Reduces [2] S32x12
  broadcasts_S32x12x1_S32x12x3 : S32x12x1.Broadcasts S32x12x3
  reduces_S32x12x3_S32x3 : S32x12x3.Reduces [1] S32x3
  inb_S32x3_S32x3_0_0 : ∀ a, (![0, 0] : Fin 2 → Nat) a + S32x3.size a ≤ S32x3.size a
  h_S32x3 : 0 < S32x3.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x12x3x73.size a ≤ S32x12x3x73.size a
  hwx0_0 : ∀ i : grid0.Coords, EltTy.bits .f32 = 32 ∨ (Rect.block (s := S32x12x3x73) S32x12x3x73.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x3x3.size a ≤ S12x3x3.size a
  hwx0_1 : ∀ i : grid0.Coords, EltTy.bits .f32 = 32 ∨ (Rect.block (s := S12x3x3) S12x3x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x3.size a ≤ S3x3.size a
  hwx0_2 : ∀ i : grid0.Coords, EltTy.bits .f32 = 32 ∨ (Rect.block (s := S3x3) S3x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x3.size a ≤ S32x3.size a
  hwx0_3 : ∀ i : grid0.Coords, EltTy.bits .f32 = 32 ∨ (Rect.block (s := S32x3) S32x3.size (cc0_transform_3 i) (hinb0_3 i)).WholeWords (EltTy.packing .f32)

variable [Facts₀]

abbrev win0_0 : Pipeline.Window sig grid0 :=
  Pipeline.Window.ofSpec (Memref.whole main_arg0) S32x12x3x73.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12x3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x3.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x12x3x73 : Shape := ⟨4, ![32, 12, 3, 73]⟩
abbrev S12x70 : Shape := ⟨2, ![12, 70]⟩
abbrev S12x3x3 : Shape := ⟨3, ![12, 3, 3]⟩
abbrev S3x3 : Shape := ⟨2, ![3, 3]⟩
abbrev S32x12x1x3 : Shape := ⟨4, ![32, 12, 1, 3]⟩
abbrev S32x12x3 : Shape := ⟨3, ![32, 12, 3]⟩
abbrev S1x12x3x3 : Shape := ⟨4, ![1, 12, 3, 3]⟩
abbrev S32x12x3x3 : Shape := ⟨4, ![32, 12, 3, 3]⟩
abbrev S_ : Shape := ⟨0, ![]⟩
abbrev S32x12 : Shape := ⟨2, ![32, 12]⟩
abbrev S32x12x1 : Shape := ⟨3, ![32, 12, 1]⟩
abbrev S32x3 : Shape := ⟨2, ![32, 3]⟩

abbrev nBuf : Space → Nat
  | .hbm => 41
  | .vmem => 0
  | .smem => 0
  | _ => 0

abbrev bufTy : (tb : Table) → Fin (tcTables nBuf tb) → BufTy
  | .hbm, ⟨0, _⟩ => ⟨S32x12x3x73, .f32⟩
  | .hbm, ⟨1, _⟩ => ⟨S12x70, .f32⟩
  | .hbm, ⟨2, _⟩ => ⟨S12x3x3, .f32⟩
  | .hbm, ⟨3, _⟩ => ⟨S3x3, .f32⟩
  | .hbm, ⟨4, _⟩ => ⟨S32x12x1x3, .f32⟩
  | .hbm, ⟨5, _⟩ => ⟨S32x12x3, .f32⟩
  | .hbm, ⟨6, _⟩ => ⟨S32x12x1x3, .f32⟩
  | .hbm, ⟨7, _⟩ => ⟨S1x12x3x3, .f32⟩
  | .hbm, ⟨8, _⟩ => ⟨S32x12x3x3, .f32⟩
  | .hbm, ⟨9, _⟩ => ⟨S32x12x3x3, .f32⟩
  | .hbm, ⟨10, _⟩ => ⟨S32x12x3x3, .f32⟩
  | .hbm, ⟨11, _⟩ => ⟨S_, .f32⟩
  | .hbm, ⟨12, _⟩ => ⟨S32x12x3, .f32⟩
  | .hbm, ⟨13, _⟩ => ⟨S32x12x3, .f32⟩
  | .hbm, ⟨14, _⟩ => ⟨S_, .f32⟩
  | .hbm, ⟨15, _⟩ => ⟨S32x12, .f32⟩
  | .hbm, ⟨16, _⟩ => ⟨S_, .f32⟩
  | .hbm, ⟨17, _⟩ => ⟨S32x12, .f32⟩
  | .hbm, ⟨18, _⟩ => ⟨S32x12, .f32⟩
  | .hbm, ⟨19, _⟩ => ⟨S32x12x1, .f32⟩
  | .hbm, ⟨20, _⟩ => ⟨S32x12x3, .f32⟩
  | .hbm, ⟨21, _⟩ => ⟨S32x12x3, .f32⟩
  | .hbm, ⟨22, _⟩ => ⟨S32x12x3, .f32⟩
  | .hbm, ⟨23, _⟩ => ⟨S_, .f32⟩
  | .hbm, ⟨24, _⟩ => ⟨S32x12, .f32⟩
  | .hbm, ⟨25, _⟩ => ⟨S32x12x1, .f32⟩
  | .hbm, ⟨26, _⟩ => ⟨S32x12x3, .f32⟩
  | .hbm, ⟨27, _⟩ => ⟨S32x12x3, .f32⟩
  | .hbm, ⟨28, _⟩ => ⟨S_, .f32⟩
  | .hbm, ⟨29, _⟩ => ⟨S32x3, .f32⟩
  | .hbm, ⟨30, _⟩ => ⟨S32x3, .f32⟩
  | .hbm, ⟨31, _⟩ => ⟨S32x3, .f32⟩
  | .hbm, ⟨32, _⟩ => ⟨S_, .f32⟩
  | .hbm, ⟨33, _⟩ => ⟨S32x3, .f32⟩
  | .hbm, ⟨34, _⟩ => ⟨S32x3, .f32⟩
  | .hbm, ⟨35, _⟩ => ⟨S_, .f32⟩
  | .hbm, ⟨36, _⟩ => ⟨S32x3, .f32⟩
  | .hbm, ⟨37, _⟩ => ⟨S32x3, .f32⟩
  | .hbm, ⟨38, _⟩ => ⟨S_, .f32⟩
  | .hbm, ⟨39, _⟩ => ⟨S32x3, .f32⟩
  | .hbm, ⟨40, _⟩ => ⟨S32x3, .f32⟩
  | _, _ => ⟨S32x12x3x73, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S32x12x3x73_S32x12x1x3_0_0_0_0 : S32x12x3x73.Slices ![0, 0, 0, 0] S32x12x1x3
  shapeCasts_S32x12x1x3_S32x12x3 : S32x12x1x3.ShapeCasts S32x12x3
  bcast_S32x12x3_S32x12x1x3_0_1_3 : S32x12x3.BroadcastsInDim S32x12x1x3 (![0, 1, 3] : Fin 3 → Fin S32x12x1x3.rank)
  bcast_S12x3x3_S1x12x3x3_1_2_3 : S12x3x3.BroadcastsInDim S1x12x3x3 (![1, 2, 3] : Fin 3 → Fin S1x12x3x3.rank)
  bcast_S32x12x1x3_S32x12x3x3_0_1_2_3 : S32x12x1x3.BroadcastsInDim S32x12x3x3 (![0, 1, 2, 3] : Fin 4 → Fin S32x12x3x3.rank)
  bcast_S1x12x3x3_S32x12x3x3_0_1_2_3 : S1x12x3x3.BroadcastsInDim S32x12x3x3 (![0, 1, 2, 3] : Fin 4 → Fin S32x12x3x3.rank)
  reducesTo_S32x12x3x3_S32x12x3_d2 : S32x12x3x3.ReducesTo [2] S32x12x3
  h_S_ : 0 < S_.numel
  reducesTo_S32x12x3_S32x12_d2 : S32x12x3.ReducesTo [2] S32x12
  bcast_S_S32x12 : S_.BroadcastsInDim S32x12 (![] : Fin 0 → Fin S32x12.rank)
  bcast_S32x12_S32x12x1_0_1 : S32x12.BroadcastsInDim S32x12x1 (![0, 1] : Fin 2 → Fin S32x12x1.rank)
  bcast_S32x12x1_S32x12x3_0_1_2 : S32x12x1.BroadcastsInDim S32x12x3 (![0, 1, 2] : Fin 3 → Fin S32x12x3.rank)
  reducesTo_S32x12x3_S32x3_d1 : S32x12x3.ReducesTo [1] S32x3
  bcast_S_S32x3 : S_.BroadcastsInDim S32x3 (![] : Fin 0 → Fin S32x3.rank)
  dot_S32x12x3_S3x3_S32x12x3_2_0_01_1_n_n_wf : DotDims.WF S32x12x3 S3x3 S32x12x3 [2] [0] [0, 1] [1] [] []

variable [Facts₀]

def dot_S32x12x3_S3x3_S32x12x3_2_0_01_1_n_n : DotDims S32x12x3 S3x3 S32x12x3 where
  lhsContracting := [2]
  rhsContracting := [0]
  lhsNonContracting := [0, 1]
  rhsNonContracting := [1]
  lhsBatch := []
  rhsBatch := []
  wf := dot_S32x12x3_S3x3_S32x12x3_2_0_01_1_n_n_wf

class Facts : Prop extends Facts₀ where

variable [Facts]
-- ==== Proof.PoolGate.lean ====
/-
  The channel-pooled softmax gate, and the two ways its scores are formed.

  For one batch entry there are twelve channels and, per channel, three SCORES r(c, 0), r(c, 1), r(c, 2).
  Each channel's scores are turned into softmax shares: with M(c) the largest of the three (never below -∞),
  w(c, k) = exp (r(c, k) - M(c)) and share(c, k) = w(c, k) / (w(c, 0) + w(c, 1) + w(c, 2)).  The shares of column k
  are added over the twelve channels, and the result is twelve times the logistic function of that sum:
      gate(k) = 12 · logistic (Σ_c share(c, k)).
  Everything here is stated on the extended reals, with the -∞ and 12 of the programs kept as the f32 words
  that spell them (the same words on both sides, so they are never evaluated).

  The scores come from a point p(j) = x(b, c, 0, j), j < 3, a 3 × 3 table of thresholds t(i, j) = th(c, i, j) and a
  3 × 3 matrix J:   r(c, k) = Σ_j d(j) · J(j, k),   where d(j) is the point's coordinate j less each of the three
  thresholds of column j, added up.  One program forms d(j) as the sum  Σ_i (p(j) - t(i, j)),  the other as
  3 · p(j) - Σ_i t(i, j).  For REAL entries these are the same number (the sum has three terms, each contributing
  one p(j)); on the extended reals the step needs the entries real, because it distributes a subtraction over
  a sum, which fails when an infinite p(j) meets an infinite threshold.
  Once d agrees, the score is the same three-term sum on both sides, grouped (d 0 · J 0k + d 1 · J 1k) + d 2 · J 2k.
-/
import Mathlib.Data.EReal.Operations
import Mathlib.Tactic
import Idealize.ShloMosaic.PureOps.Ideal
import Idealize.ShloMosaic.PureOps.Ideal.Laws
import Idealize.ShloMosaic.Lib.ValueIdx

noncomputable section

open scoped BigOperators

namespace Cert.PoolGate

open Idealize.ShloMosaic Idealize.ShloMosaic.ValueIdx

/-! ## The gate over given scores -/

/-- The f32 word of -∞, as an extended real. -/
abbrev negInf : EReal := Ideal.ofBits .f32 0xFF800000#32
/-- The f32 word of 12, as an extended real. -/
abbrev twelve : EReal := Ideal.ofBits .f32 0x41400000#32
/-- The f32 word of 3, as an extended real. -/
abbrev three : EReal := Ideal.ofBits .f32 0x40400000#32

/-- The largest of a channel's three scores, taken from -∞ and once more against -∞. -/
def peak (r : Fin 3 → EReal) : EReal := max negInf ((Finset.univ : Finset (Fin 3)).fold max negInf r)

/-- A score's weight: the exponential of its distance below the channel's largest score. -/
def weight (r : Fin 3 → EReal) (k : Fin 3) : EReal := Ideal.exp (r k - peak r)

/-- A score's softmax share: its weight over the channel's three weights added up. -/
def share (r : Fin 3 → EReal) (k : Fin 3) : EReal := Ideal.div (weight r k) (∑ k' : Fin 3, weight r k')

/-- Column k's shares added over the twelve channels. -/
def pooled (R : Fin 12 → Fin 3 → EReal) (k : Fin 3) : EReal := ∑ c : Fin 12, share (R c) k

/-- Twelve times the logistic function of the pooled share. -/
def gate (R : Fin 12 → Fin 3 → EReal) (k : Fin 3) : EReal := twelve * Ideal.logistic (pooled R k)

/-! ## The scores -/

/-- The arrays' index types, by their literal extents. -/
abbrev XIdx := (⟨4, ![32, 12, 3, 73]⟩ : Shape).Idx
abbrev TIdx := (⟨3, ![12, 3, 3]⟩ : Shape).Idx
abbrev JIdx := (⟨2, ![3, 3]⟩ : Shape).Idx

/-- Coordinate j < 3 of the point of batch entry b, channel c: x(b, c, 0, j). -/
def point (x : XIdx → EReal) (b : Fin 32) (c : Fin 12) (j : Fin 3) : EReal :=
  x (ix4 b c (0 : Fin 3) (Fin.castLE (by decide : 3 ≤ 73) j))

/-- The point's coordinate j less each threshold of column j, added over the three rows. -/
def offsetSum (x : XIdx → EReal) (th : TIdx → EReal) (b : Fin 32) (c : Fin 12) (j : Fin 3) : EReal :=
  ∑ i : Fin 3, (point x b c j - th (ix3 c i j))

/-- The same quantity as three times the coordinate less the column's thresholds added up. -/
def offsetScaled (x : XIdx → EReal) (th : TIdx → EReal) (b : Fin 32) (c : Fin 12) (j : Fin 3) : EReal :=
  three * point x b c j - ∑ i : Fin 3, th (ix3 c i j)

/-- A score: the offsets against column k of the matrix. -/
def score (d : Fin 3 → EReal) (J : JIdx → EReal) (k : Fin 3) : EReal := ∑ j : Fin 3, d j * J (ix2 j k)

/-- The result at batch entry b, column k, of the three argument arrays. -/
def result (x : XIdx → EReal) (th : TIdx → EReal) (J : JIdx → EReal) (b : Fin 32) (k : Fin 3) : EReal :=
  gate (fun c k' => score (offsetSum x th b c) J k') k

/-! ## The law -/

/-- The f32 word 0x40400000 is the real number 3 (sign 0, exponent 128, significand 1.5). -/
theorem three_eq : three = ((3 : ℝ) : EReal) := by
  simp [three, Ideal.ofBits, Ideal.ieee, -EReal.coe_mul]; norm_num

/-- For a real p and three real t i:  Σ_i (p - t i) = 3 · p - Σ_i t i. -/
theorem sum_sub_eq (p : EReal) (t : Fin 3 → EReal) (hp : ∃ r : ℝ, p = (r : EReal)) (ht : ∀ i, ∃ r : ℝ, t i = (r : EReal)) :
    ∑ i : Fin 3, (p - t i) = three * p - ∑ i : Fin 3, t i := by
  obtain ⟨a, rfl⟩ := hp
  choose f hf using ht
  simp only [Fin.sum_univ_three, hf, three_eq]
  rw [← EReal.coe_sub, ← EReal.coe_sub, ← EReal.coe_sub, ← EReal.coe_add, ← EReal.coe_add, ← EReal.coe_add, ← EReal.coe_add,
    ← EReal.coe_mul, ← EReal.coe_sub]
  exact congrArg _ (by ring)

/-- So, for real x and th, the two forms of the offset agree. -/
theorem offsetSum_eq_scaled (x : XIdx → EReal) (th : TIdx → EReal) (hx : ∀ i, ∃ r : ℝ, x i = (r : EReal))
    (hth : ∀ i, ∃ r : ℝ, th i = (r : EReal)) (b : Fin 32) (c : Fin 12) (j : Fin 3) :
    offsetSum x th b c j = offsetScaled x th b c j :=
  sum_sub_eq (point x b c j) (fun i => th (ix3 c i j)) (hx _) (fun i => hth _)

/-- The three-term score, grouped from the left as a program adds it. -/
theorem score_eq (d : Fin 3 → EReal) (J : JIdx → EReal) (k : Fin 3) :
    score d J k = d 0 * J (ix2 (0 : Fin 3) k) + d 1 * J (ix2 (1 : Fin 3) k) + d 2 * J (ix2 (2 : Fin 3) k) :=
  Fin.sum_univ_three _

/-! ## The whole result array -/

/-- The result array's index type. -/
abbrev OIdx := (⟨2, ![32, 3]⟩ : Shape).Idx

/-- The [32, 3] result array with the offsets formed as sums of differences. -/
def resultArray (x : XIdx → EReal) (th : TIdx → EReal) (J : JIdx → EReal) : OIdx → EReal :=
  fun i => result x th J (i 0) (i 1)

/-- The [32, 3] result array with the offsets formed as three times the coordinate less the thresholds' sum. -/
def resultArrayScaled (x : XIdx → EReal) (th : TIdx → EReal) (J : JIdx → EReal) : OIdx → EReal :=
  fun i => gate (fun c k' => score (offsetScaled x th (i 0) c) J k') (i 1)

/-- For real x and th the two arrays are one. -/
theorem resultArrayScaled_eq (x : XIdx → EReal) (th : TIdx → EReal) (J : JIdx → EReal) (hx : ∀ i, ∃ r : ℝ, x i = (r : EReal))
    (hth : ∀ i, ∃ r : ℝ, th i = (r : EReal)) : resultArrayScaled x th J = resultArray x th J :=
  funext fun i => congrArg (fun R => gate R (i 1)) (funext fun c => funext fun k' =>
    congrArg (fun d => score d J k') (funext fun j => (offsetSum_eq_scaled x th hx hth (i 0) c j).symm))

end Cert.PoolGate

end
-- ==== Proof.HostRead.lean ====
/-
  The host program read as the channel-pooled softmax gate.

  The host program forms the offsets as sums of differences, contracts them against the matrix, and then applies the
  softmax over the three columns, the sum over the twelve channels, the logistic function spelt out as
  1 / (1 + exp (-q)), and the factor twelve.  Each stage is read at an index and named by its coordinates; the only
  facts used are that the f32 words of zero and one denote 0 and 1 (a sum started from 0, the logistic function's two
  ones) and that a fold of max over an axis may be taken over that axis's coordinates in any order.
-/
import proofs.«177740_j21380347200016_1_alg».proof.Proof.Gen.ReferenceIdeal.Read
import proofs.«177740_j21380347200016_1_alg».proof.Proof.PoolGate
import Idealize.ShloMosaic.PureOps.IdealRules

noncomputable section

open scoped BigOperators

namespace Cert.HostRead

open Cert.ReferenceIdeal Cert.ReferenceIdeal.Gen Cert.ReferenceIdeal.Read Idealize.ShloMosaic Idealize.ShloMosaic.ValueIdx
open Cert.PoolGate

variable (x0 : (⟨S32x12x3x73, .f32⟩ : BufTy).Contents (Elt Ideal)) (x2 : (⟨S12x3x3, .f32⟩ : BufTy).Contents (Elt Ideal))
  (x3 : (⟨S3x3, .f32⟩ : BufTy).Contents (Elt Ideal))

/-- The f32 word of one denotes 1. -/
theorem one_eq : Ideal.ofBits .f32 0x3F800000#32 = 1 := IdealRules.sign_bit.ideal_onePat .f32

/-! ## The scores -/

/-- The sum over the threshold rows at (b, c, j) is the offset as a sum of differences. -/
theorem offset_apply (b : Fin 32) (c : Fin 12) (j : Fin 3) :
    val_main_v7 (F := Ideal) x0 x2 (ix3 b c j) = offsetSum x0 x2 b c j := by
  rw [val_main_v7_apply, val_main_cst_apply, Ideal.ofBits_def, Ideal.ofBits_zero_f32, zero_add]
  unfold offsetSum
  refine Finset.sum_congr rfl fun i _ => ?_
  rw [val_main_v6_apply, val_main_v4_apply, val_main_v2_apply, val_main_v1_apply, val_main_v0_apply, val_main_v5_apply,
    val_main_v3_apply]
  have hb := b.isLt
  have hc := c.isLt
  have hj := j.isLt
  have e0 : idx_main_v0 (idx_main_v1 (idx_main_v2 (idx_main_v4 (idx_main_v7 (ix3 b c j) i))))
      = ix4 b c (0 : Fin 3) (Fin.castLE (by decide : 3 ≤ 73) j) := funext fun a => Fin.ext (by
    match a with
    | ⟨0, _⟩ => show ((b.val * 12 + c.val) * 3 + j.val) / 36 = b.val; omega
    | ⟨1, _⟩ => show ((b.val * 12 + c.val) * 3 + j.val) / 3 % 12 = c.val; omega
    | ⟨2, _⟩ => rfl
    | ⟨3, _⟩ => show ((b.val * 12 + c.val) * 3 + j.val) % 3 = j.val; omega)
  have e2 : idx_main_v3 (idx_main_v5 (idx_main_v7 (ix3 b c j) i)) = ix3 c i j := funext fun a => Fin.ext (by
    match a with
    | ⟨0, _⟩ => rfl
    | ⟨1, _⟩ => rfl
    | ⟨2, _⟩ => rfl)
  rw [e0, e2]
  rfl

/-- The contraction against the matrix at (b, c, k) is the score of the offsets. -/
theorem score_apply (b : Fin 32) (c : Fin 12) (k : Fin 3) :
    val_main_v8 (F := Ideal) x0 x2 x3 (ix3 b c k) = score (offsetSum x0 x2 b c) x3 k := by
  rw [val_main_v8_apply]
  unfold score
  refine Finset.sum_congr rfl fun j _ => ?_
  have el : lidx_main_v8 (ix3 b c k) j = ix3 b c j := funext fun a => Fin.ext (by
    match a with
    | ⟨0, _⟩ => rfl
    | ⟨1, _⟩ => rfl
    | ⟨2, _⟩ => rfl)
  have er : ridx_main_v8 (ix3 b c k) j = ix2 j k := funext fun a => Fin.ext (by
    match a with
    | ⟨0, _⟩ => rfl
    | ⟨1, _⟩ => rfl)
  rw [el, er, offset_apply]

/-! ## The softmax, the pooling and the gate, over the contraction's values -/

/-- The scores of batch entry b as the contraction holds them. -/
abbrev rows (b : Fin 32) : Fin 12 → Fin 3 → EReal := fun c k => val_main_v8 (F := Ideal) x0 x2 x3 (ix3 b c k)

theorem hred : S32x12x3.Reduces [2] S32x12 := by decide

/-- The fold of max along the columns at (b, c), over the three coordinates. -/
theorem rowmax_apply (b : Fin 32) (c : Fin 12) :
    val_main_v9 (F := Ideal) x0 x2 x3 (ix2 b c) = (Finset.univ : Finset (Fin 3)).fold max negInf (rows x0 x2 x3 b c) := by
  unfold val_main_v9
  rw [Host.reduce_eq_fold_single FloatOps.maximumf _ _ reducesTo_S32x12x3_S32x12_d2 hred h_S_ (ix2 b c)]
  have e : (val_main_v8 (F := Ideal) x0 x2 x3 ∘ hred.lift (ix2 b c)) = rows x0 x2 x3 b c := funext fun k' =>
    congrArg (val_main_v8 (F := Ideal) x0 x2 x3) (funext fun a => Fin.ext (by
      match a with
      | ⟨0, _⟩ => rfl
      | ⟨1, _⟩ => rfl
      | ⟨2, _⟩ => rfl))
  rw [e]
  rfl

theorem peak_apply (b : Fin 32) (c : Fin 12) :
    val_main_v11 (F := Ideal) x0 x2 x3 (ix2 b c) = peak (rows x0 x2 x3 b c) := by
  rw [val_main_v11_apply, val_main_v10_apply, val_main_cst_1_apply, rowmax_apply]
  rfl

theorem weight_apply (b : Fin 32) (c : Fin 12) (k : Fin 3) :
    val_main_v15 (F := Ideal) x0 x2 x3 (ix3 b c k) = weight (rows x0 x2 x3 b c) k := by
  rw [val_main_v15_apply, val_main_v14_apply, val_main_v13_apply, val_main_v12_apply]
  have e : idx_main_v12 (idx_main_v13 (ix3 b c k)) = ix2 b c := funext fun a => Fin.ext (by
    match a with
    | ⟨0, _⟩ => rfl
    | ⟨1, _⟩ => rfl)
  rw [e, peak_apply]
  rfl

theorem share_apply (b : Fin 32) (c : Fin 12) (k : Fin 3) :
    val_main_v19 (F := Ideal) x0 x2 x3 (ix3 b c k) = share (rows x0 x2 x3 b c) k := by
  rw [val_main_v19_apply, val_main_v18_apply, val_main_v17_apply, val_main_v16_apply, val_main_cst_2_apply,
    Ideal.ofBits_def, Ideal.ofBits_zero_f32, zero_add, weight_apply]
  have e : idx_main_v17 (idx_main_v18 (ix3 b c k)) = ix2 b c := funext fun a => Fin.ext (by
    match a with
    | ⟨0, _⟩ => rfl
    | ⟨1, _⟩ => rfl)
  rw [e]
  unfold share
  rw [Ideal.hostDivf_def]
  refine congrArg _ (Finset.sum_congr rfl fun k' _ => ?_)
  have e' : idx_main_v16 (ix2 b c) k' = ix3 b c k' := funext fun a => Fin.ext (by
    match a with
    | ⟨0, _⟩ => rfl
    | ⟨1, _⟩ => rfl
    | ⟨2, _⟩ => rfl)
  rw [e', weight_apply]

theorem pooled_apply (b : Fin 32) (k : Fin 3) :
    val_main_v20 (F := Ideal) x0 x2 x3 (ix2 b k) = pooled (rows x0 x2 x3 b) k := by
  rw [val_main_v20_apply, val_main_cst_3_apply, Ideal.ofBits_def, Ideal.ofBits_zero_f32, zero_add]
  unfold pooled
  refine Finset.sum_congr rfl fun c _ => ?_
  have e : idx_main_v20 (ix2 b k) c = ix3 b c k := funext fun a => Fin.ext (by
    match a with
    | ⟨0, _⟩ => rfl
    | ⟨1, _⟩ => rfl
    | ⟨2, _⟩ => rfl)
  rw [e, share_apply]

/-- The host program's last stage at (b, k) is the gate over the contraction's values. -/
theorem gate_apply (b : Fin 32) (k : Fin 3) :
    val_main_v28 (F := Ideal) x0 x2 x3 (ix2 b k) = gate (rows x0 x2 x3 b) k := by
  rw [val_main_v28_apply, val_main_v27_apply, val_main_cst_6_apply, val_main_v26_apply, val_main_v25_apply,
    val_main_cst_5_apply, val_main_v24_apply, val_main_v23_apply, val_main_cst_4_apply, val_main_v22_apply,
    val_main_v21_apply, pooled_apply, Ideal.ofBits_def, Ideal.ofBits_def, one_eq]
  rfl

/-- THE HOST PROGRAM'S RESULT at (b, k) is the specification's. -/
theorem result_apply (b : Fin 32) (k : Fin 3) :
    val_main_v28 (F := Ideal) x0 x2 x3 (ix2 b k) = result x0 x2 x3 b k := by
  rw [gate_apply]
  unfold result
  exact congrArg (fun R => gate R k) (funext fun c => funext fun k' => score_apply x0 x2 x3 b c k')

end Cert.HostRead

end
-- ==== Proof.KernelRead.lean ====
/-
  The kernel's body read as the channel-pooled softmax gate.

  The body loads the whole arrays, forms the offsets as 3 · p(j) - Σ_i t(i, j), builds the three score columns one
  after the other as (d 0 · J 0k + d 1 · J 1k) + d 2 · J 2k on [32, 12] arrays, joins them along a new last axis, and
  applies the softmax over that axis, the sum over the twelve channels, the logistic function and the factor twelve.
  The body's text is restated here over VARIABLES (a term of one product, a column, the joined scores, the tail after
  the scores), each piece is read at an index named by its coordinates, and the body's own payload is these pieces
  by unfolding.  A layout operation moves an index (a slice adds its offset, a cast keeps the row-major position, a
  broadcast puts 0 on a unit axis); a sum or a maximum along one axis runs over that axis's coordinates.
-/
import proofs.«177740_j21380347200016_1_alg».proof.Proof.Gen.KernelIdeal.Skeleton
import proofs.«177740_j21380347200016_1_alg».proof.Proof.PoolGate
import Idealize.ShloMosaic.Lib.Pipeline.Value
import Idealize.ShloMosaic.Lib.ValueIdx
import Idealize.ShloMosaic.PureOps.Ideal.Laws

noncomputable section

open scoped BigOperators

namespace Cert.KernelRead

open Cert.KernelIdeal Cert.KernelIdeal.Gen Idealize.ShloMosaic Idealize.ShloMosaic.ValueIdx
open Cert.PoolGate

/-! ## Layout operations at an index -/

/-- A [32, 12, 1] array read as [32, 12]: the unit axis dropped. -/
theorem dropUnit_apply (w : FVec Ideal S32x12x1 .f32) (h : S32x12x1.ShapeCasts S32x12) (b : Fin 32) (c : Fin 12) :
    shapeCast S32x12 w h (ix2 b c) = w (ix3 b c (0 : Fin 1)) :=
  shapeCast_apply w h (ix2 b c) (ix3 b c (0 : Fin 1)) (by
    rw [Shape.rowMajor_val_three, Shape.rowMajor_val_two]
    show (b.val * 12 + c.val) * 1 + 0 = b.val * 12 + c.val
    omega)

/-- A [32, 12] array read as [32, 12, 1]: a unit axis added. -/
theorem addUnit_apply (v : FVec Ideal S32x12 .f32) (h : S32x12.ShapeCasts S32x12x1) (b : Fin 32) (c : Fin 12) :
    shapeCast S32x12x1 v h (ix3 b c (0 : Fin 1)) = v (ix2 b c) :=
  shapeCast_apply v h (ix3 b c (0 : Fin 1)) (ix2 b c) (by
    rw [Shape.rowMajor_val_two, Shape.rowMajor_val_three]
    show b.val * 12 + c.val = (b.val * 12 + c.val) * 1 + 0
    omega)

/-- Column n of a [32, 12, 3] array, cut out as a [32, 12, 1] array. -/
theorem sliceCol_apply (d : FVec Ideal S32x12x3 .f32) (n : Nat) (hn : n < 3) (hs : S32x12x3.Slices ![0, 0, n] S32x12x1)
    (b : Fin 32) (c : Fin 12) :
    extractStridedSlice S32x12x1 ![0, 0, n] d hs (ix3 b c (0 : Fin 1)) = d (ix3 b c (⟨n, hn⟩ : Fin 3)) :=
  extractStridedSlice_apply ![0, 0, n] d hs (ix3 b c (0 : Fin 1)) (ix3 b c (⟨n, hn⟩ : Fin 3)) (fun a => by
    match a with
    | ⟨0, _⟩ => show b.val = 0 + b.val; omega
    | ⟨1, _⟩ => show c.val = 0 + c.val; omega
    | ⟨2, _⟩ => show n = n + 0; omega)

/-- Entry (p, q) of the 3 × 3 matrix, cut out as a 1 × 1 array and read. -/
theorem entry_apply (J : FVec Ideal S3x3 .f32) (p q : Nat) (hp : p < 3) (hq : q < 3) (hs : S3x3.Slices ![p, q] S1x1)
    (hpos : ∀ a, (![0, 0] : Fin 2 → Nat) a < S1x1.size a) :
    extractAt ![0, 0] (extractStridedSlice S1x1 ![p, q] J hs) hpos = J (ix2 (⟨p, hp⟩ : Fin 3) (⟨q, hq⟩ : Fin 3)) := by
  show extractStridedSlice S1x1 ![p, q] J hs (fun a => ⟨(![0, 0] : Fin 2 → Nat) a, hpos a⟩) = _
  exact extractStridedSlice_apply ![p, q] J hs (fun a => ⟨(![0, 0] : Fin 2 → Nat) a, hpos a⟩) (ix2 (⟨p, hp⟩ : Fin 3) (⟨q, hq⟩ : Fin 3)) (fun a => by
    match a with
    | ⟨0, _⟩ => rfl
    | ⟨1, _⟩ => rfl)

/-- A [32, 12] array repeated along a new last axis of length 3. -/
def spread (v : FVec Ideal S32x12 .f32) : FVec Ideal S32x12x3 .f32 :=
  broadcastTo S32x12x3 (shapeCast S32x12x1 v shapeCasts_S32x12_S32x12x1) broadcasts_S32x12x1_S32x12x3

theorem spread_apply (v : FVec Ideal S32x12 .f32) (b : Fin 32) (c : Fin 12) (k : Fin 3) :
    spread v (ix3 b c k) = v (ix2 b c) :=
  (broadcastTo_apply _ broadcasts_S32x12x1_S32x12x3 (ix3 b c k) (ix3 b c (0 : Fin 1)) (fun a => by
    match a with
    | ⟨0, _⟩ => show b.val = if (32 : Nat) = 1 then 0 else b.val; rw [if_neg (by decide)]
    | ⟨1, _⟩ => show c.val = if (12 : Nat) = 1 then 0 else c.val; rw [if_neg (by decide)]
    | ⟨2, _⟩ => show 0 = if (1 : Nat) = 1 then 0 else k.val; rw [if_pos rfl])).trans
    (addUnit_apply v _ b c)

/-- The point's coordinates: the slice [0:32, 0:12, 0:1, 0:3] of x with its unit axis dropped. -/
theorem point_apply (x0 : FVec Ideal S32x12x3x73 .f32) (hs : S32x12x3x73.Slices ![0, 0, 0, 0] S32x12x1x3)
    (hc : S32x12x1x3.ShapeCasts S32x12x3) (b : Fin 32) (c : Fin 12) (j : Fin 3) :
    shapeCast S32x12x3 (extractStridedSlice S32x12x1x3 ![0, 0, 0, 0] x0 hs) hc (ix3 b c j) = point x0 b c j :=
  (shapeCast_apply _ hc (ix3 b c j) (ix4 b c (0 : Fin 1) j) (by
    rw [Shape.rowMajor_val_four, Shape.rowMajor_val_three]
    show ((b.val * 12 + c.val) * 1 + 0) * 3 + j.val = (b.val * 12 + c.val) * 3 + j.val
    omega)).trans
  (extractStridedSlice_apply ![0, 0, 0, 0] x0 hs (ix4 b c (0 : Fin 1) j)
    (ix4 b c (0 : Fin 3) (Fin.castLE (by decide : 3 ≤ 73) j)) (fun a => by
    match a with
    | ⟨0, _⟩ => show b.val = 0 + b.val; omega
    | ⟨1, _⟩ => show c.val = 0 + c.val; omega
    | ⟨2, _⟩ => rfl
    | ⟨3, _⟩ => show j.val = 0 + j.val; omega))

/-- A [12, 3] array given a leading unit axis and repeated over the 32 batch entries. -/
theorem overBatch_apply (u : FVec Ideal S12x3 .f32) (b : Fin 32) (c : Fin 12) (j : Fin 3) :
    broadcastTo S32x12x3 (shapeCast S1x12x3 u shapeCasts_S12x3_S1x12x3) broadcasts_S1x12x3_S32x12x3 (ix3 b c j) = u (ix2 c j) :=
  (broadcastTo_apply _ broadcasts_S1x12x3_S32x12x3 (ix3 b c j) (ix3 (0 : Fin 1) c j) (fun a => by
    match a with
    | ⟨0, _⟩ => show 0 = if (1 : Nat) = 1 then 0 else b.val; rw [if_pos rfl]
    | ⟨1, _⟩ => show c.val = if (12 : Nat) = 1 then 0 else c.val; rw [if_neg (by decide)]
    | ⟨2, _⟩ => show j.val = if (3 : Nat) = 1 then 0 else j.val; rw [if_neg (by decide)])).trans
  (shapeCast_apply u shapeCasts_S12x3_S1x12x3 (ix3 (0 : Fin 1) c j) (ix2 c j) (by
    rw [Shape.rowMajor_val_two, Shape.rowMajor_val_three]
    show c.val * 3 + j.val = (0 * 12 + c.val) * 3 + j.val
    omega))

/-! ## Sums and the maximum along one axis -/

/-- The thresholds added over their rows. -/
theorem rowsOfTh_apply (t : FVec Ideal S12x3x3 .f32) (c : Fin 12) (j : Fin 3) :
    multiReduction .add [1] S12x3 t 0x00000000#32 reduces_S12x3x3_S12x3 (.inl rfl) rfl (ix2 c j) = ∑ i : Fin 3, t (ix3 c i j) :=
  (Ideal.multiReduction_add_single t 0x00000000#32 reduces_S12x3x3_S12x3 (.inl rfl) rfl (ix2 c j)).trans
    (Finset.sum_congr rfl fun i _ => congrArg t (funext fun a => Fin.ext (by
      match a with
      | ⟨0, _⟩ => rfl
      | ⟨1, _⟩ => rfl
      | ⟨2, _⟩ => rfl)))

/-- A [32, 12, 3] array added along its last axis. -/
theorem lastSum_apply (e : FVec Ideal S32x12x3 .f32) (b : Fin 32) (c : Fin 12) :
    multiReduction .add [2] S32x12 e 0x00000000#32 reduces_S32x12x3_S32x12 (.inl rfl) rfl (ix2 b c) = ∑ k : Fin 3, e (ix3 b c k) :=
  (Ideal.multiReduction_add_single e 0x00000000#32 reduces_S32x12x3_S32x12 (.inl rfl) rfl (ix2 b c)).trans
    (Finset.sum_congr rfl fun k _ => congrArg e (funext fun a => Fin.ext (by
      match a with
      | ⟨0, _⟩ => rfl
      | ⟨1, _⟩ => rfl
      | ⟨2, _⟩ => rfl)))

/-- A [32, 12, 3] array added over the twelve channels. -/
theorem chanSum_apply (p : FVec Ideal S32x12x3 .f32) (b : Fin 32) (k : Fin 3) :
    multiReduction .add [1] S32x3 p 0x00000000#32 reduces_S32x12x3_S32x3 (.inl rfl) rfl (ix2 b k) = ∑ c : Fin 12, p (ix3 b c k) :=
  (Ideal.multiReduction_add_single p 0x00000000#32 reduces_S32x12x3_S32x3 (.inl rfl) rfl (ix2 b k)).trans
    (Finset.sum_congr rfl fun c _ => congrArg p (funext fun a => Fin.ext (by
      match a with
      | ⟨0, _⟩ => rfl
      | ⟨1, _⟩ => rfl
      | ⟨2, _⟩ => rfl)))

/-- The maximum of a [32, 12, 3] array along its last axis, from -∞. -/
theorem lastMax_apply (r : FVec Ideal S32x12x3 .f32) (b : Fin 32) (c : Fin 12) :
    multiReduction .maximumf [2] S32x12 r 0xFF800000#32 reduces_S32x12x3_S32x12 (.inl rfl) rfl (ix2 b c)
      = (Finset.univ : Finset (Fin 3)).fold max negInf (fun k => r (ix3 b c k)) := by
  refine (Ideal.multiReduction_maximumf_single r 0xFF800000#32 reduces_S32x12x3_S32x12 (.inl rfl) rfl (ix2 b c)).trans ?_
  have e : (r ∘ reduces_S32x12x3_S32x12.lift (ix2 b c)) = fun k : Fin 3 => r (ix3 b c k) := funext fun k =>
    congrArg r (funext fun a => Fin.ext (by
      match a with
      | ⟨0, _⟩ => rfl
      | ⟨1, _⟩ => rfl
      | ⟨2, _⟩ => rfl))
  rw [e]
  rfl

/-! ## The offsets -/

/-- The body's offsets at (b, c, j): three times the point's coordinate less the column's thresholds added up. -/
theorem offset_apply (x0 : FVec Ideal S32x12x3x73 .f32) (x1 : FVec Ideal S12x3x3 .f32) (b : Fin 32) (c : Fin 12) (j : Fin 3) :
    k0_pay2 (F := Ideal) x0 x1 (ix3 b c j) = offsetScaled x0 x1 b c j := by
  show three * shapeCast S32x12x3 (extractStridedSlice S32x12x1x3 ![0, 0, 0, 0] x0 slices_S32x12x3x73_o0_0_0_0_S32x12x1x3)
        shapeCasts_S32x12x1x3_S32x12x3 (ix3 b c j)
      - broadcastTo S32x12x3 (shapeCast S1x12x3 (multiReduction .add [1] S12x3 x1 0x00000000#32 reduces_S12x3x3_S12x3 (.inl rfl) rfl)
        shapeCasts_S12x3_S1x12x3) broadcasts_S1x12x3_S32x12x3 (ix3 b c j) = _
  rw [point_apply, overBatch_apply, rowsOfTh_apply]
  rfl

/-! ## One product, one column, the joined scores -/

/-- Column n of the offsets times entry (p, q) of the matrix, on [32, 12]. -/
def term (d : FVec Ideal S32x12x3 .f32) (J : FVec Ideal S3x3 .f32) (n p q : Nat) (hs : S32x12x3.Slices ![0, 0, n] S32x12x1)
    (hj : S3x3.Slices ![p, q] S1x1) : FVec Ideal S32x12 .f32 :=
  mulf (shapeCast S32x12 (extractStridedSlice S32x12x1 ![0, 0, n] d hs) shapeCasts_S32x12x1_S32x12)
    (broadcast S32x12 (extractAt ![0, 0] (extractStridedSlice S1x1 ![p, q] J hj) inpos_S1x1_p0_0))

theorem term_apply (d : FVec Ideal S32x12x3 .f32) (J : FVec Ideal S3x3 .f32) (n p q : Nat) (hn : n < 3) (hp : p < 3) (hq : q < 3)
    (hs : S32x12x3.Slices ![0, 0, n] S32x12x1) (hj : S3x3.Slices ![p, q] S1x1) (b : Fin 32) (c : Fin 12) :
    term d J n p q hs hj (ix2 b c) = d (ix3 b c (⟨n, hn⟩ : Fin 3)) * J (ix2 (⟨p, hp⟩ : Fin 3) (⟨q, hq⟩ : Fin 3)) := by
  show shapeCast S32x12 (extractStridedSlice S32x12x1 ![0, 0, n] d hs) shapeCasts_S32x12x1_S32x12 (ix2 b c)
      * extractAt ![0, 0] (extractStridedSlice S1x1 ![p, q] J hj) inpos_S1x1_p0_0 = _
  rw [dropUnit_apply, sliceCol_apply d n hn, entry_apply J p q hp hq]

/-- Score column q on [32, 12]: the three products added from the left. -/
def column (d : FVec Ideal S32x12x3 .f32) (J : FVec Ideal S3x3 .f32) (q : Nat) (h0 : S3x3.Slices ![0, q] S1x1)
    (h1 : S3x3.Slices ![1, q] S1x1) (h2 : S3x3.Slices ![2, q] S1x1) : FVec Ideal S32x12 .f32 :=
  addf (addf (term d J 0 0 q slices_S32x12x3_o0_0_0_S32x12x1 h0) (term d J 1 1 q slices_S32x12x3_o0_0_1_S32x12x1 h1))
    (term d J 2 2 q slices_S32x12x3_o0_0_2_S32x12x1 h2)

theorem column_apply (d : FVec Ideal S32x12x3 .f32) (J : FVec Ideal S3x3 .f32) (q : Nat) (hq : q < 3) (h0 : S3x3.Slices ![0, q] S1x1)
    (h1 : S3x3.Slices ![1, q] S1x1) (h2 : S3x3.Slices ![2, q] S1x1) (b : Fin 32) (c : Fin 12) :
    column d J q h0 h1 h2 (ix2 b c) = score (fun j => d (ix3 b c j)) J (⟨q, hq⟩ : Fin 3) := by
  show term d J 0 0 q slices_S32x12x3_o0_0_0_S32x12x1 h0 (ix2 b c) + term d J 1 1 q slices_S32x12x3_o0_0_1_S32x12x1 h1 (ix2 b c)
      + term d J 2 2 q slices_S32x12x3_o0_0_2_S32x12x1 h2 (ix2 b c) = _
  rw [term_apply d J 0 0 q (by decide) (by decide) hq, term_apply d J 1 1 q (by decide) (by decide) hq,
    term_apply d J 2 2 q (by decide) (by decide) hq, score_eq]
  rfl

/-- The three score columns joined along a new last axis. -/
def joined (d : FVec Ideal S32x12x3 .f32) (J : FVec Ideal S3x3 .f32) : FVec Ideal S32x12x3 .f32 :=
  concatenate S32x12x3 2
    [⟨S32x12x1, shapeCast S32x12x1 (column d J 0 slices_S3x3_o0_0_S1x1 slices_S3x3_o1_0_S1x1 slices_S3x3_o2_0_S1x1) shapeCasts_S32x12_S32x12x1⟩,
     ⟨S32x12x1, shapeCast S32x12x1 (column d J 1 slices_S3x3_o0_1_S1x1 slices_S3x3_o1_1_S1x1 slices_S3x3_o2_1_S1x1) shapeCasts_S32x12_S32x12x1⟩,
     ⟨S32x12x1, shapeCast S32x12x1 (column d J 2 slices_S3x3_o0_2_S1x1 slices_S3x3_o1_2_S1x1 slices_S3x3_o2_2_S1x1) shapeCasts_S32x12_S32x12x1⟩]
    concatenates_S32x12x1_S32x12x1_S32x12x1_S32x12x3_d2

/-- Three [32, 12, 1] pieces joined along the last axis, read in piece n at (b, c, n). -/
theorem join3_apply (y0 y1 y2 : FVec Ideal S32x12x1 .f32)
    (h : Shape.Concatenates [S32x12x1, S32x12x1, S32x12x1] S32x12x3 2) (b : Fin 32) (c : Fin 12) (k : Fin 3) :
    concatenate S32x12x3 2 [⟨S32x12x1, y0⟩, ⟨S32x12x1, y1⟩, ⟨S32x12x1, y2⟩] h (ix3 b c k)
      = (match k with | ⟨0, _⟩ => y0 | ⟨1, _⟩ => y1 | ⟨2, _⟩ => y2) (ix3 b c (0 : Fin 1)) := by
  have hi : ∀ (n : Fin 3) (a' : Fin S32x12x1.rank), a'.cast (rfl : S32x12x1.rank = S32x12x3.rank) ≠ (2 : Fin S32x12x3.rank) →
      ((ix3 b c (0 : Fin 1) : S32x12x1.Idx) a').val = ((ix3 b c n : S32x12x3.Idx) (a'.cast rfl)).val := fun n a' ha' => by
    match a', ha' with
    | ⟨0, _⟩, _ => rfl
    | ⟨1, _⟩, _ => rfl
    | ⟨2, _⟩, h2 => exact absurd rfl h2
  match k with
  | ⟨0, _⟩ =>
    exact concatenate_apply_piece (2 : Fin S32x12x3.rank) ([⟨S32x12x1, y0⟩, ⟨S32x12x1, y1⟩, ⟨S32x12x1, y2⟩] : List ((s : Shape) × (s.Idx → Ideal .f32))) h (ix3 b c (0 : Fin 3)) 0 (by show (0 : Nat) < 3; decide) S32x12x1 y0 rfl rfl 0 rfl
      (ix3 b c (0 : Fin 1)) (hi 0) rfl
  | ⟨1, _⟩ =>
    exact concatenate_apply_piece (2 : Fin S32x12x3.rank) ([⟨S32x12x1, y0⟩, ⟨S32x12x1, y1⟩, ⟨S32x12x1, y2⟩] : List ((s : Shape) × (s.Idx → Ideal .f32))) h (ix3 b c (1 : Fin 3)) 1 (by show (1 : Nat) < 3; decide) S32x12x1 y1 rfl rfl 1 rfl
      (ix3 b c (0 : Fin 1)) (hi 1) rfl
  | ⟨2, _⟩ =>
    exact concatenate_apply_piece (2 : Fin S32x12x3.rank) ([⟨S32x12x1, y0⟩, ⟨S32x12x1, y1⟩, ⟨S32x12x1, y2⟩] : List ((s : Shape) × (s.Idx → Ideal .f32))) h (ix3 b c (2 : Fin 3)) 2 (by show (2 : Nat) < 3; decide) S32x12x1 y2 rfl rfl 2 rfl
      (ix3 b c (0 : Fin 1)) (hi 2) rfl

/-- The joined scores at (b, c, k): the score of the offsets at (b, c) against column k. -/
theorem joined_apply (d : FVec Ideal S32x12x3 .f32) (J : FVec Ideal S3x3 .f32) (b : Fin 32) (c : Fin 12) (k : Fin 3) :
    joined d J (ix3 b c k) = score (fun j => d (ix3 b c j)) J k := by
  unfold joined
  rw [join3_apply]
  match k with
  | ⟨0, _⟩ => exact (addUnit_apply _ _ b c).trans (column_apply d J 0 (by decide) _ _ _ b c)
  | ⟨1, _⟩ => exact (addUnit_apply _ _ b c).trans (column_apply d J 1 (by decide) _ _ _ b c)
  | ⟨2, _⟩ => exact (addUnit_apply _ _ b c).trans (column_apply d J 2 (by decide) _ _ _ b c)

/-! ## The tail after the scores -/

/-- Each channel's largest score, from -∞ and once more against -∞. -/
def rowPeak (r : FVec Ideal S32x12x3 .f32) : FVec Ideal S32x12 .f32 :=
  maximumf (broadcast S32x12 (Scalar.ofBits .f32 0xFF800000#32))
    (multiReduction .maximumf [2] S32x12 r 0xFF800000#32 reduces_S32x12x3_S32x12 (.inl rfl) rfl)

/-- The weights: exponentials of the scores' distances below their channel's largest. -/
def weights (r : FVec Ideal S32x12x3 .f32) : FVec Ideal S32x12x3 .f32 := exp (subf r (spread (rowPeak r)))

/-- The shares: each weight over its channel's weights added up. -/
def shares (r : FVec Ideal S32x12x3 .f32) : FVec Ideal S32x12x3 .f32 :=
  divf (weights r) (spread (multiReduction .add [2] S32x12 (weights r) 0x00000000#32 reduces_S32x12x3_S32x12 (.inl rfl) rfl))

/-- Twelve times the logistic function of the shares added over the channels. -/
def tail (r : FVec Ideal S32x12x3 .f32) : FVec Ideal S32x3 .f32 :=
  mulf (broadcast S32x3 (Scalar.ofBits .f32 0x41400000#32))
    (logistic (multiReduction .add [1] S32x3 (shares r) 0x00000000#32 reduces_S32x12x3_S32x3 (.inl rfl) rfl))

theorem rowPeak_apply (r : FVec Ideal S32x12x3 .f32) (b : Fin 32) (c : Fin 12) :
    rowPeak r (ix2 b c) = peak (fun k => r (ix3 b c k)) := by
  show max negInf (multiReduction .maximumf [2] S32x12 r 0xFF800000#32 reduces_S32x12x3_S32x12 (.inl rfl) rfl (ix2 b c)) = _
  rw [lastMax_apply]
  rfl

theorem weights_apply (r : FVec Ideal S32x12x3 .f32) (b : Fin 32) (c : Fin 12) (k : Fin 3) :
    weights r (ix3 b c k) = weight (fun k' => r (ix3 b c k')) k := by
  show Ideal.exp (r (ix3 b c k) - spread (rowPeak r) (ix3 b c k)) = _
  rw [spread_apply, rowPeak_apply]
  rfl

theorem shares_apply (r : FVec Ideal S32x12x3 .f32) (b : Fin 32) (c : Fin 12) (k : Fin 3) :
    shares r (ix3 b c k) = share (fun k' => r (ix3 b c k')) k := by
  show Ideal.div (weights r (ix3 b c k))
      (spread (multiReduction .add [2] S32x12 (weights r) 0x00000000#32 reduces_S32x12x3_S32x12 (.inl rfl) rfl) (ix3 b c k)) = _
  rw [spread_apply, lastSum_apply, weights_apply]
  unfold share
  exact congrArg _ (Finset.sum_congr rfl fun k' _ => weights_apply r b c k')

theorem tail_apply (r : FVec Ideal S32x12x3 .f32) (b : Fin 32) (k : Fin 3) :
    tail r (ix2 b k) = gate (fun c k' => r (ix3 b c k')) k := by
  show twelve * Ideal.logistic (multiReduction .add [1] S32x3 (shares r) 0x00000000#32 reduces_S32x12x3_S32x3 (.inl rfl) rfl (ix2 b k)) = _
  rw [chanSum_apply]
  unfold gate pooled
  exact congrArg (fun q => twelve * Ideal.logistic q) (Finset.sum_congr rfl fun c _ => shares_apply r b c k)

/-! ## The body's payload -/

/-- The body's stored value is the tail of the joined scores of its offsets. -/
theorem payload_eq (x0 : FVec Ideal S32x12x3x73 .f32) (x1 : FVec Ideal S12x3x3 .f32) (x2 : FVec Ideal S3x3 .f32) :
    k0_pay1 (F := Ideal) x2 (k0_pay2 x0 x1) (k0_pay3 x0 x1 x2) (k0_pay4 x0 x1 x2) (k0_pay5 x0 x1) (k0_pay6 x2)
      = tail (joined (k0_pay2 x0 x1) x2) := rfl

/-- THE BODY'S RESULT at (b, k): the gate over the scores of the offsets in their scaled form. -/
theorem payload_apply (x0 : FVec Ideal S32x12x3x73 .f32) (x1 : FVec Ideal S12x3x3 .f32) (x2 : FVec Ideal S3x3 .f32)
    (b : Fin 32) (k : Fin 3) :
    k0_pay1 (F := Ideal) x2 (k0_pay2 x0 x1) (k0_pay3 x0 x1 x2) (k0_pay4 x0 x1 x2) (k0_pay5 x0 x1) (k0_pay6 x2) (ix2 b k)
      = gate (fun c k' => score (offsetScaled x0 x1 b c) x2 k') k := by
  rw [payload_eq, tail_apply]
  refine congrArg (fun R => gate R k) (funext fun c => funext fun k' => ?_)
  rw [joined_apply]
  exact congrArg (fun d => score d x2 k') (funext fun j => offset_apply x0 x1 b c j)

end Cert.KernelRead

end
-- ==== Proof.KernelWhole.lean ====
/-
  The kernel's result array after the run.

  The grid has one point and every window's block is its whole array (each index map is constantly zero), so the
  blocks the body reads ARE the argument arrays, and the one block written back covers the whole result array.
  The body stores its value through the whole-buffer rectangle, so the buffer ends holding the body's value; read
  at (b, k) that is the gate over the scores of the offsets in their scaled form.  Hence the result array after the
  run is that function of the three argument arrays the body reads.
-/
import proofs.«177740_j21380347200016_1_alg».proof.Proof.Gen.KernelIdeal.Value
import proofs.«177740_j21380347200016_1_alg».proof.Proof.KernelRead
import proofs.«177740_j21380347200016_1_alg».proof.Proof.PoolGate

noncomputable section

namespace Cert.KernelWhole

open Cert.KernelIdeal Cert.KernelIdeal.Gen Idealize.ShloMosaic Idealize.ShloMosaic.TcCoe Idealize.SL.Sem Idealize.ShloMosaic.ValueIdx
open Idealize.ShloMosaic.Pipeline (Dat)
open Cert.PoolGate

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the body leaves in the output buffer, read at (b, k): its one store goes through the whole buffer, and its
    loads read the whole input buffers. -/
theorem out_apply (x0 : Vec Ideal S32x12x3x73 .f32) (x1 : Vec Ideal S12x3x3 .f32) (x2 : Vec Ideal S3x3 .f32) (b : Fin 32) (k : Fin 3) :
    out0_3 (F := Ideal) x0 x1 x2 (ix2 b k) = gate (fun c k' => score (offsetScaled x0 x1 b c) x2 k') k := by
  unfold out0_3
  rw [View.canon_unit_zero hz2]
  simp only [View.ld_unit_zero (S := S32x12x3x73) hz4, View.ld_unit_zero (S := S12x3x3) hz3, View.ld_unit_zero (S := S3x3) hz2]
  exact KernelRead.payload_apply x0 x1 x2 b k

/-- The same with the input buffers and the index given up to equality. -/
theorem out_eq_of (x0 : Vec Ideal S32x12x3x73 .f32) (x1 : Vec Ideal S12x3x3 .f32) (x2 : Vec Ideal S3x3 .f32)
    (a0 : S32x12x3x73.Idx → EReal) (a2 : S12x3x3.Idx → EReal) (a3 : S3x3.Idx → EReal) (h0 : x0 = a0) (h1 : x1 = a2) (h2 : x2 = a3)
    (j i : S32x3.Idx) (hi : i = j) : out0_3 (F := Ideal) x0 x1 x2 j = resultArrayScaled a0 a2 a3 i := by
  subst h0 h1 h2 hi
  exact (congrArg (out0_3 (F := Ideal) x0 x1 x2) (eq_ix2 i)).trans (out_apply x0 x1 x2 (i 0) (i 1))

/-- Every window's block index is zero on every axis, at the grid's one point (decided). -/
theorem idx_zero : ∀ t : Fin cfg0.N, (∀ a, win0_0.index t a = 0) ∧ (∀ a, win0_1.index t a = 0) ∧ (∀ a, win0_2.index t a = 0)
    ∧ (∀ a, win0_3.index t a = 0) :=
  (by decide +kernel : ∀ t : Fin grid0.N, _)

/-- WHAT THE POINT WRITES BACK is the block of the result array (the whole of it) of the argument arrays. -/
theorem flushed_eq (c : Dev nD) (t : Fin cfg0.N) :
    (dats m 0 c).flushed 3 t = ((cfg0.win 3).blk t).view.read (Elt Ideal)
      (resultArrayScaled (V m c main_arg0) (V m c main_arg2) (V m c main_arg3)) := by
  rw [Value.flushed3]
  funext j
  obtain ⟨z0, z1, z2, z3⟩ := idx_zero t
  have e0 : iblk m c 0 t = (V m c main_arg0 : S32x12x3x73.Idx → EReal) := funext fun y =>
    congrArg (V m c main_arg0) (funext fun a => Fin.ext (by
      match a with
      | ⟨0, _⟩ => show win0_0.index t (0 : Fin 4) * 32 + 1 * (y 0).val = (y 0).val; rw [z0]; omega
      | ⟨1, _⟩ => show win0_0.index t (1 : Fin 4) * 12 + 1 * (y 1).val = (y 1).val; rw [z0]; omega
      | ⟨2, _⟩ => show win0_0.index t (2 : Fin 4) * 3 + 1 * (y 2).val = (y 2).val; rw [z0]; omega
      | ⟨3, _⟩ => show win0_0.index t (3 : Fin 4) * 73 + 1 * (y 3).val = (y 3).val; rw [z0]; omega))
  have e1 : iblk m c 1 t = (V m c main_arg2 : S12x3x3.Idx → EReal) := funext fun y =>
    congrArg (V m c main_arg2) (funext fun a => Fin.ext (by
      match a with
      | ⟨0, _⟩ => show win0_1.index t (0 : Fin 3) * 12 + 1 * (y 0).val = (y 0).val; rw [z1]; omega
      | ⟨1, _⟩ => show win0_1.index t (1 : Fin 3) * 3 + 1 * (y 1).val = (y 1).val; rw [z1]; omega
      | ⟨2, _⟩ => show win0_1.index t (2 : Fin 3) * 3 + 1 * (y 2).val = (y 2).val; rw [z1]; omega))
  have e2 : iblk m c 2 t = (V m c main_arg3 : S3x3.Idx → EReal) := funext fun y =>
    congrArg (V m c main_arg3) (funext fun a => Fin.ext (by
      match a with
      | ⟨0, _⟩ => show win0_2.index t (0 : Fin 2) * 3 + 1 * (y 0).val = (y 0).val; rw [z2]; omega
      | ⟨1, _⟩ => show win0_2.index t (1 : Fin 2) * 3 + 1 * (y 1).val = (y 1).val; rw [z2]; omega))
  have e3 : (((cfg0.win 3).blk t).view.emb j : S32x3.Idx) = j := funext fun a => Fin.ext (by
      match a with
      | ⟨0, _⟩ => show win0_3.index t (0 : Fin 2) * 32 + 1 * (j 0).val = (j 0).val; rw [z3]; omega
      | ⟨1, _⟩ => show win0_3.index t (1 : Fin 2) * 3 + 1 * (j 1).val = (j 1).val; rw [z3]; omega)
  exact out_eq_of (iblk m c 0 t) (iblk m c 1 t) (iblk m c 2 t) (V m c main_arg0) (V m c main_arg2) (V m c main_arg3) e0 e1 e2 j
    (((cfg0.win 3).blk t).view.emb j) e3

/-- An index of the result array is in the point's block iff each coordinate is in the block's range on its axis. -/
theorem mem_blk (t : Fin cfg0.N) (i : S32x3.Idx) :
    i ∈ ((cfg0.win 3).blk t).view.set ↔ ∀ a : Fin 2, win0_3.index t a * S32x3.size a ≤ (i a).val
      ∧ (i a).val < win0_3.index t a * S32x3.size a + S32x3.size a := by
  show i ∈ ((View.whole main_v0).slice (win0_3.rect t)).set ↔ _
  rw [View.set_slice_whole, Rect.mem_set_unit]
  exact Iff.rfl

/-- The one block covers the result array. -/
theorem cover (i : S32x3.Idx) : ∃ t : Fin cfg0.N, (cfg0.win 3).flush t = true ∧ i ∈ ((cfg0.win 3).blk t).view.set := by
  refine ⟨t0_0, flush0_3 t0_0, ?_⟩
  rw [mem_blk]
  obtain ⟨-, -, -, z3⟩ := idx_zero t0_0
  have h0 : (i 0).val < 32 := (i 0).isLt
  have h1 : (i 1).val < 3 := (i 1).isLt
  intro a
  match a with
  | ⟨0, _⟩ =>
    show win0_3.index t0_0 (0 : Fin 2) * 32 ≤ (i 0).val ∧ (i 0).val < win0_3.index t0_0 (0 : Fin 2) * 32 + 32
    rw [z3]; omega
  | ⟨1, _⟩ =>
    show win0_3.index t0_0 (1 : Fin 2) * 3 ≤ (i 1).val ∧ (i 1).val < win0_3.index t0_0 (1 : Fin 2) * 3 + 3
    rw [z3]; omega

/-- THE RESULT ARRAY after the run, as one function of the argument arrays. -/
theorem final (c : Dev nD) :
    (dats m 0 c).arrAt 3 cfg0.N = resultArrayScaled (V m c main_arg0) (V m c main_arg2) (V m c main_arg3) :=
  (dats m 0 c).arrAt_eq_of_cover 3 _ (fun t _ => flushed_eq m c t) cover

/-- The kernel's run: every weakly fair execution terminates with the result array at that function of the arguments,
    the arguments unchanged. -/
theorem run : θ_run defs (onTc (τ := τ) (main (F := Ideal))) ⟨m, fun _ => 0, ρ⟩ fun r => ∀ c : Dev nD,
      r.2.mem ((c : Thread nD τ).loc main_v0)
        = resultArrayScaled (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelWhole

end
-- ==== Proof.FiniteEntries.lean ====
/-
  What the precondition gives: every entry of x and of the thresholds is a real number.

  The precondition is the conjunction of four tests, one per argument array: every entry's absolute value is below +∞.
  The conjunction came out 1, so each test did; a test is an "and" over all entries that came out 1, so each entry
  passed it; and an extended real whose absolute value max (x, -x) is below +∞ is neither +∞ nor -∞, hence a real.
  Only the tests of x and of the thresholds are used: the matrix J and the unused second argument may be anything.
-/
import proofs.«177740_j21380347200016_1_alg».proof.Proof.Gen.Pre_finite_inputs
import Idealize.ShloMosaic.Lib.ReduceAll
import Idealize.ShloMosaic.Lib.ValueIdx
import Idealize.ShloMosaic.PureOps.Ideal.Laws

noncomputable section

namespace Cert.FiniteEntries

open Cert.Pre_finite_inputs Cert.Pre_finite_inputs.Gen Idealize.ShloMosaic Idealize.ShloMosaic.ValueIdx

/-- The scalar shape has one index. -/
instance : Subsingleton S_.Idx := ⟨fun a b => funext fun d => d.elim0⟩

/-- The f32 word 0x7F800000 is +∞. -/
theorem inf_eq : Ideal.ofBits .f32 0x7F800000#32 = ⊤ := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One array's test: if "every |entry| < +∞" came out 1, every entry is a real number. -/
theorem real_of_test {s : Shape} {axes : List (Fin s.rank)} (a : FVec Ideal s .f32)
    (hb : S_.BroadcastsInDim s (![] : Fin 0 → Fin s.rank)) (hr : s.ReducesTo axes S_) (hS : 0 < S_.numel)
    (h : Host.reduce IntOp.andi (cmpf .olt (Host.absf a) (broadcastInDim s ![] hb (constant (F := Ideal) S_ .f32 0x7F800000#32)))
      (constantI S_ 1 1#1) hr hS ix0 = 1#1) (i : s.Idx) : ∃ r : ℝ, a i = (r : EReal) := by
  have e := Host.reduce_andi_all _ _ hr hS ix0 h i
  have e' : Ideal.cmp .olt (max (a i) (-(a i))) (Ideal.ofBits .f32 0x7F800000#32) = 1#1 := e
  rw [inf_eq] at e'
  unfold Ideal.cmp at e'
  refine real_of_abs_lt_top _ ?_
  by_contra hn
  simp [hn] at e'

/-- THE PRECONDITION'S USE: x (the first argument) and the thresholds (the third) hold real numbers. -/
theorem args_real (a0 : FVec Ideal S32x12x3x73 .f32) (a1 : FVec Ideal S12x70 .f32) (a2 : FVec Ideal S12x3x3 .f32)
    (a3 : FVec Ideal S3x3 .f32) (h : fn (F := Ideal) a0 a1 a2 a3 = fun _ => 1#1) :
    (∀ i, ∃ r : ℝ, a0 i = (r : EReal)) ∧ (∀ i, ∃ r : ℝ, a2 i = (r : EReal)) := by
  have h0 := congrFun h ix0
  dsimp only [fn, fn_part1] at h0
  obtain ⟨h13, -⟩ := IntOp.andi_eq_one.1 (h0 : IntOp.andi _ _ = 1#1)
  obtain ⟨h8, h12⟩ := IntOp.andi_eq_one.1 (h13 : IntOp.andi _ _ = 1#1)
  obtain ⟨h3, -⟩ := IntOp.andi_eq_one.1 (h8 : IntOp.andi _ _ = 1#1)
  exact ⟨fun i => real_of_test a0 _ _ _ h3 i, fun i => real_of_test a2 _ _ _ h12 i⟩

end Cert.FiniteEntries

end
-- ==== Proof.lean ====
/-
  A channel-pooled softmax gate, computed two ways.

  Inputs: x : [32, 12, 3, 73], thresholds th : [12, 3, 3], a matrix J : [3, 3] (a fourth array is passed and never read).
  For batch entry b and channel c let p(j) = x(b, c, 0, j) for j < 3.  Both programs form offsets d(b, c, j), the scores
      r(b, c, k) = Σ_j d(b, c, j) · J(j, k),
  the softmax of r over k, the sum of the shares over the twelve channels, and return, at (b, k),
      12 · logistic (Σ_c softmax_k r(b, c, ·)).
  They differ in one step only.  The host program takes all nine differences p(j) - th(c, i, j), adds them over i, and
  contracts against J:  d(b, c, j) = Σ_i (p(j) - th(c, i, j)).  The kernel first adds the thresholds over i and subtracts
  that from three times the point:  d(b, c, j) = 3 · p(j) - Σ_i th(c, i, j),  and writes the contraction out as three
  products added from the left.  For real entries the two offsets are the same number, and that is where the
  precondition (every input finite) is used: on the extended reals a subtraction does not distribute over a sum when
  an infinite coordinate meets an infinite threshold.  Everything after the offsets is the same function on both sides:
  the kernel's logistic operation is 1 / (1 + exp (-q)), which the host program spells out; the maximum the softmax
  subtracts is a fold of max over three entries from -∞ on both sides; a sum started from 0 is the sum.

  The modules: PoolGate states the function and proves the law for real entries; HostRead reads the host program's
  stages at an index; KernelRead reads the kernel body's value at an index and KernelWhole the result array after the
  kernel's run (one grid point, every block the whole array); FiniteEntries turns the precondition into "every entry
  of x and th is real".  The three frames are the generated frame runs, and the idealization rewrote nothing.
-/
import proofs.«177740_j21380347200016_1_alg».proof.Defs
import proofs.«177740_j21380347200016_1_alg».proof.Proof.Gen.Kernel
import proofs.«177740_j21380347200016_1_alg».proof.Proof.Gen.Kernel.Skeleton
import proofs.«177740_j21380347200016_1_alg».proof.Proof.Gen.Kernel.Launch
import proofs.«177740_j21380347200016_1_alg».proof.Proof.Gen.Kernel.Points
import proofs.«177740_j21380347200016_1_alg».proof.Proof.Gen.Kernel.Frame
import proofs.«177740_j21380347200016_1_alg».proof.Proof.Gen.KernelIdeal
import proofs.«177740_j21380347200016_1_alg».proof.Proof.Gen.KernelIdeal.Skeleton
import proofs.«177740_j21380347200016_1_alg».proof.Proof.Gen.KernelIdeal.Launch
import proofs.«177740_j21380347200016_1_alg».proof.Proof.Gen.KernelIdeal.Points
import proofs.«177740_j21380347200016_1_alg».proof.Proof.Gen.KernelIdeal.Frame
import proofs.«177740_j21380347200016_1_alg».proof.Proof.Gen.ReferenceIdeal
import proofs.«177740_j21380347200016_1_alg».proof.Proof.Gen.Pre_finite_inputs
import proofs.«177740_j21380347200016_1_alg».proof.Proof.Gen.KernelIdeal.Value
import proofs.«177740_j21380347200016_1_alg».proof.Proof.Gen.ReferenceIdeal.Run
import proofs.«177740_j21380347200016_1_alg».proof.Proof.Gen.ReferenceIdeal.Read
import proofs.«177740_j21380347200016_1_alg».proof.Proof.PoolGate
import proofs.«177740_j21380347200016_1_alg».proof.Proof.HostRead
import proofs.«177740_j21380347200016_1_alg».proof.Proof.KernelRead
import proofs.«177740_j21380347200016_1_alg».proof.Proof.KernelWhole
import proofs.«177740_j21380347200016_1_alg».proof.Proof.FiniteEntries
import Idealize.ShloMosaic.Adequacy
import Idealize.ShloMosaic.Init

noncomputable section

namespace Cert.Proof

open Idealize.ShloMosaic Idealize.SL.Sem Idealize.ShloMosaic.ValueIdx

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The host program's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments, with every input finite, both runs end with the result array at
    12 · logistic (Σ_c softmax r) of the arguments: the kernel's with the offsets in their scaled form, which for real
    x and th is the host program's sum of differences. -/
theorem algebraic : Cert.algebraic_KernelIdeal_ReferenceIdeal := by
  intro m ρ m' ρ' hpre hagree
  refine ⟨fun c => Cert.PoolGate.resultArray
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelWhole.run m ρ)
    obtain ⟨hx, hth⟩ := Cert.FiniteEntries.args_real _ _ _ _ (hpre c)
    exact Cert.PoolGate.resultArrayScaled_eq _ _ _ hx hth
  · refine (θ_run Cert.ReferenceIdeal.defs _ _).mono (fun r h c => ⟨?_, (h c).2⟩)
      (Cert.ReferenceIdeal.Value.run (F := Ideal) m' ρ')
    rw [(h c).1, Cert.ReferenceIdeal.Read.val_main_v28_eq, (hagree c).1, (hagree c).2.2.1, (hagree c).2.2.2]
    exact funext fun i => (congrArg (Cert.ReferenceIdeal.Read.val_main_v28 (F := Ideal) _ _ _) (eq_ix2 i)).trans
      (Cert.HostRead.result_apply _ _ _ (i 0) (i 1))

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
